-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S128x512 : Shape := ⟨2, ![128, 512]⟩
abbrev S128 : Shape := ⟨1, ![128]⟩
abbrev S128x128 : Shape := ⟨2, ![128, 128]⟩
abbrev S256x128 : Shape := ⟨2, ![256, 128]⟩
abbrev S256 : Shape := ⟨1, ![256]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S256x128 .f32) (main_arg7 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_v33

def fn {F : FTy → Type} [FloatOps F] (main_arg0 : FVec F S262144x512 .f32) (main_arg1 : FVec F S128x512 .f32) (main_arg2 : FVec F S128 .f32) (main_arg3 : FVec F S128x128 .f32) (main_arg4 : FVec F S128x128 .f32) (main_arg5 : FVec F S128 .f32) (main_arg6 : FVec F S256x128 .f32) (main_arg7 : FVec F S256 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S262144x512 : Shape := ⟨2, ![262144, 512]⟩
abbrev S128x512 : Shape := ⟨2, ![128, 512]⟩
abbrev S128 : Shape := ⟨1, ![128]⟩
abbrev S128x128 : Shape := ⟨2, ![128, 128]⟩
abbrev S256x128 : Shape := ⟨2, ![256, 128]⟩
abbrev S256 : Shape := ⟨1, ![256]⟩
abbrev S262144x256 : Shape := ⟨2, ![262144, 256]⟩
abbrev S2048x512 : Shape := ⟨2, ![2048, 512]⟩
abbrev S2048x256 : Shape := ⟨2, ![2048, 256]⟩
abbrev S2048x128 : Shape := ⟨2, ![2048, 128]⟩
abbrev S1x128 : Shape := ⟨2, ![1, 128]⟩
abbrev S1x256 : Shape := ⟨2, ![1, 256]⟩

abbrev nBuf : Space → Nat
  | .hbm => 9
  | .vmem => 11
  | .smem => 0
  | _ => 0

abbrev bufTy : (tb : Table) → Fin (tcTables nBuf tb) → BufTy
  | .hbm, ⟨0, _⟩ => ⟨S262144x512, .f32⟩
  | .hbm, ⟨1, _⟩ => ⟨S128x512, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S256, .f32⟩
  | .hbm, ⟨8, _⟩ => ⟨S262144x256, .f32⟩
  | .local _ .vmem, ⟨0, _⟩ => ⟨S2048x512, .f32⟩
  | .local _ .vmem, ⟨1, _⟩ => ⟨S2048x512, .f32⟩
  | .local _ .vmem, ⟨2, _⟩ => ⟨S128x512, .f32⟩
  | .local _ .vmem, ⟨3, _⟩ => ⟨S128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S256x128, .f32⟩
  | .local _ .vmem, ⟨8, _⟩ => ⟨S256, .f32⟩
  | .local _ .vmem, ⟨9, _⟩ => ⟨S2048x256, .f32⟩
  | .local _ .vmem, ⟨10, _⟩ => ⟨S2048x256, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S2048x512_S2048x512_0_0 : ∀ a, (![0, 0] : Fin 2 → Nat) a + S2048x512.size a ≤ S2048x512.size a
  h_S2048x512 : 0 < S2048x512.numel
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  inb_S256x128_S256x128_0_0 : ∀ a, (![0, 0] : Fin 2 → Nat) a + S256x128.size a ≤ S256x128.size a
  h_S256x128 : 0 < S256x128.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x512_S128x512_S2048x128_1_1_0_0_n_n_wf : DotDims.WF S2048x512 S128x512 S2048x128 [1] [1] [0] [0] [] []
  dot_S2048x128_S128x128_S2048x128_1_1_0_0_n_n_wf : DotDims.WF S2048x128 S128x128 S2048x128 [1] [1] [0] [0] [] []
  dot_S2048x128_S256x128_S2048x256_1_1_0_0_n_n_wf : DotDims.WF S2048x128 S256x128 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S262144x512.size a
  hwx0_0 : ∀ i : grid0.Coords, EltTy.bits .f32 = 32 ∨ (Rect.block (s := S262144x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S262144x256.size a
  hwx0_8 : ∀ i : grid0.Coords, EltTy.bits .f32 = 32 ∨ (Rect.block (s := S262144x256) S2048x256.size (cc0_transform_8 i) (hinb0_8 i)).WholeWords (EltTy.packing .f32)

variable [Facts₀]

def dot_S2048x512_S128x512_S2048x128_1_1_0_0_n_n : DotDims S2048x512 S128x512 S2048x128 where
  lhsContracting := [1]
  rhsContracting := [1]
  lhsNonContracting := [0]
  rhsNonContracting := [0]
  lhsBatch := []
  rhsBatch := []
  wf := dot_S2048x512_S128x512_S2048x128_1_1_0_0_n_n_wf
def dot_S2048x128_S128x128_S2048x128_1_1_0_0_n_n : DotDims S2048x128 S128x128 S2048x128 where
  lhsContracting := [1]
  rhsContracting := [1]
  lhsNonContracting := [0]
  rhsNonContracting := [0]
  lhsBatch := []
  rhsBatch := []
  wf := dot_S2048x128_S128x128_S2048x128_1_1_0_0_n_n_wf
def dot_S2048x128_S256x128_S2048x256_1_1_0_0_n_n : DotDims S2048x128 S256x128 S2048x256 where
  lhsContracting := [1]
  rhsContracting := [1]
  lhsNonContracting := [0]
  rhsNonContracting := [0]
  lhsBatch := []
  rhsBatch := []
  wf := dot_S2048x128_S256x128_S2048x256_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x512 : Shape := ⟨2, ![262144, 512]⟩
abbrev S128x512 : Shape := ⟨2, ![128, 512]⟩
abbrev S128 : Shape := ⟨1, ![128]⟩
abbrev S128x128 : Shape := ⟨2, ![128, 128]⟩
abbrev S256x128 : Shape := ⟨2, ![256, 128]⟩
abbrev S256 : Shape := ⟨1, ![256]⟩
abbrev S512x128 : Shape := ⟨2, ![512, 128]⟩
abbrev S262144x128 : Shape := ⟨2, ![262144, 128]⟩
abbrev S1x128 : Shape := ⟨2, ![1, 128]⟩
abbrev S_ : Shape := ⟨0, ![]⟩
abbrev S128x256 : Shape := ⟨2, ![128, 256]⟩
abbrev S262144x256 : Shape := ⟨2, ![262144, 256]⟩
abbrev S1x256 : Shape := ⟨2, ![1, 256]⟩

abbrev nBuf : Space → Nat
  | .hbm => 72
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S128x512, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S256, .f32⟩
  | .hbm, ⟨8, _⟩ => ⟨S512x128, .f32⟩
  | .hbm, ⟨9, _⟩ => ⟨S262144x128, .f32⟩
  | .hbm, ⟨10, _⟩ => ⟨S1x128, .f32⟩
  | .hbm, ⟨11, _⟩ => ⟨S262144x128, .f32⟩
  | .hbm, ⟨12, _⟩ => ⟨S262144x128, .f32⟩
  | .hbm, ⟨13, _⟩ => ⟨S128x128, .f32⟩
  | .hbm, ⟨14, _⟩ => ⟨S262144x128, .f32⟩
  | .hbm, ⟨15, _⟩ => ⟨S1x128, .f32⟩
  | .hbm, ⟨16, _⟩ => ⟨S262144x128, .f32⟩
  | .hbm, ⟨17, _⟩ => ⟨S262144x128, .f32⟩
  | .hbm, ⟨18, _⟩ => ⟨S262144x128, .f32⟩
  | .hbm, ⟨19, _⟩ => ⟨S128x128, .f32⟩
  | .hbm, ⟨20, _⟩ => ⟨S262144x128, .f32⟩
  | .hbm, ⟨21, _⟩ => ⟨S262144x128, .f32⟩
  | .hbm, ⟨22, _⟩ => ⟨S262144x128, .f32⟩
  | .hbm, ⟨23, _⟩ => ⟨S262144x128, .f32⟩
  | .hbm, ⟨24, _⟩ => ⟨S_, .f32⟩
  | .hbm, ⟨25, _⟩ => ⟨S262144x128, .f32⟩
  | .hbm, ⟨26, _⟩ => ⟨S262144x128, .f32⟩
  | .hbm, ⟨27, _⟩ => ⟨S262144x128, .f32⟩
  | .hbm, ⟨28, _⟩ => ⟨S262144x128, .f32⟩
  | .hbm, ⟨29, _⟩ => ⟨S128x128, .f32⟩
  | .hbm, ⟨30, _⟩ => ⟨S262144x128, .f32⟩
  | .hbm, ⟨31, _⟩ => ⟨S262144x128, .f32⟩
  | .hbm, ⟨32, _⟩ => ⟨S262144x128, .f32⟩
  | .hbm, ⟨33, _⟩ => ⟨S262144x128, .f32⟩
  | .hbm, ⟨34, _⟩ => ⟨S_, .f32⟩
  | .hbm, ⟨35, _⟩ => ⟨S262144x128, .f32⟩
  | .hbm, ⟨36, _⟩ => ⟨S262144x128, .f32⟩
  | .hbm, ⟨37, _⟩ => ⟨S262144x128, .f32⟩
  | .hbm, ⟨38, _⟩ => ⟨S262144x128, .f32⟩
  | .hbm, ⟨39, _⟩ => ⟨S128x128, .f32⟩
  | .hbm, ⟨40, _⟩ => ⟨S262144x128, .f32⟩
  | .hbm, ⟨41, _⟩ => ⟨S262144x128, .f32⟩
  | .hbm, ⟨42, _⟩ => ⟨S262144x128, .f32⟩
  | .hbm, ⟨43, _⟩ => ⟨S262144x128, .f32⟩
  | .hbm, ⟨44, _⟩ => ⟨S_, .f32⟩
  | .hbm, ⟨45, _⟩ => ⟨S262144x128, .f32⟩
  | .hbm, ⟨46, _⟩ => ⟨S262144x128, .f32⟩
  | .hbm, ⟨47, _⟩ => ⟨S262144x128, .f32⟩
  | .hbm, ⟨48, _⟩ => ⟨S262144x128, .f32⟩
  | .hbm, ⟨49, _⟩ => ⟨S128x128, .f32⟩
  | .hbm, ⟨50, _⟩ => ⟨S262144x128, .f32⟩
  | .hbm, ⟨51, _⟩ => ⟨S262144x128, .f32⟩
  | .hbm, ⟨52, _⟩ => ⟨S262144x128, .f32⟩
  | .hbm, ⟨53, _⟩ => ⟨S262144x128, .f32⟩
  | .hbm, ⟨54, _⟩ => ⟨S_, .f32⟩
  | .hbm, ⟨55, _⟩ => ⟨S262144x128, .f32⟩
  | .hbm, ⟨56, _⟩ => ⟨S262144x128, .f32⟩
  | .hbm, ⟨57, _⟩ => ⟨S262144x128, .f32⟩
  | .hbm, ⟨58, _⟩ => ⟨S_, .f32⟩
  | .hbm, ⟨59, _⟩ => ⟨S262144x128, .f32⟩
  | .hbm, ⟨60, _⟩ => ⟨S262144x128, .f32⟩
  | .hbm, ⟨61, _⟩ => ⟨S262144x128, .f32⟩
  | .hbm, ⟨62, _⟩ => ⟨S262144x128, .f32⟩
  | .hbm, ⟨63, _⟩ => ⟨S_, .f32⟩
  | .hbm, ⟨64, _⟩ => ⟨S262144x128, .f32⟩
  | .hbm, ⟨65, _⟩ => ⟨S262144x128, .f32⟩
  | .hbm, ⟨66, _⟩ => ⟨S262144x128, .f32⟩
  | .hbm, ⟨67, _⟩ => ⟨S128x256, .f32⟩
  | .hbm, ⟨68, _⟩ => ⟨S262144x256, .f32⟩
  | .hbm, ⟨69, _⟩ => ⟨S1x256, .f32⟩
  | .hbm, ⟨70, _⟩ => ⟨S262144x256, .f32⟩
  | .hbm, ⟨71, _⟩ => ⟨S262144x256, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_1 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_2 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]

class Facts₀ : Prop where
  transposes_S128x512_S512x128_1_0 : S128x512.Transposes [1, 0] S512x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  transposes_S128x128_S128x128_1_0 : S128x128.Transposes [1, 0] S128x128
  bcast_S_S262144x128 : S_.BroadcastsInDim S262144x128 (![] : Fin 0 → Fin S262144x128.rank)
  transposes_S256x128_S128x256_1_0 : S256x128.Transposes [1, 0] S128x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  dot_S262144x512_S512x128_S262144x128_1_0_0_1_n_n_wf : DotDims.WF S262144x512 S512x128 S262144x128 [1] [0] [0] [1] [] []
  dot_S262144x128_S128x128_S262144x128_1_0_0_1_n_n_wf : DotDims.WF S262144x128 S128x128 S262144x128 [1] [0] [0] [1] [] []
  dot_S262144x128_S128x256_S262144x256_1_0_0_1_n_n_wf : DotDims.WF S262144x128 S128x256 S262144x256 [1] [0] [0] [1] [] []

variable [Facts₀]

def dot_S262144x512_S512x128_S262144x128_1_0_0_1_n_n : DotDims S262144x512 S512x128 S262144x128 where
  lhsContracting := [1]
  rhsContracting := [0]
  lhsNonContracting := [0]
  rhsNonContracting := [1]
  lhsBatch := []
  rhsBatch := []
  wf := dot_S262144x512_S512x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf

class Facts : Prop extends Facts₀ where

variable [Facts]
-- ==== Proof.LibDenseRows.lean ====
/-
  Reads at an index, at the ideal values, for a dense layer whose weight matrix is stored with one ROW per output
  feature. Such a layer multiplies a batch of row vectors by the matrix with the last axis of BOTH operands contracted,
  accumulates into zero, and adds a bias vector that is first laid out as a single row and then repeated down the batch.
  Read at (row p, feature j) the product is the dot product of row p of the batch with row j of the weights, and the
  repeated bias is its j-th entry.
-/
import Idealize.ShloMosaic.PureOps.Ideal.Laws
import Idealize.ShloMosaic.Lib.ValueIdx
import Idealize.ShloMosaic.Lib.ValueLayout

noncomputable section

open scoped BigOperators

namespace Cert.DenseRows

open Idealize.ShloMosaic Idealize.ShloMosaic.ValueIdx

/-- Dimension numbers that contract the last axis of an m×k left operand with the last axis of an n×k right operand,
    with no batch axis, are those of the product with the right operand transposed. -/
theorem dotDims_eq_transposedRhs {m k n : Nat} (D : DotDims ⟨2, ![m, k]⟩ ⟨2, ![n, k]⟩ ⟨2, ![m, n]⟩)
    (hlc : D.lhsContracting = [1]) (hrc : D.rhsContracting = [1]) (hln : D.lhsNonContracting = [0])
    (hrn : D.rhsNonContracting = [0]) (hlb : D.lhsBatch = []) (hrb : D.rhsBatch = []) :
    D = DotDims.transposedRhs m k n := by
  obtain ⟨lc, rc, ln, rn, lb, rb, wf⟩ := D
  dsimp only at hlc hrc hln hrn hlb hrb
  subst hlc hrc hln hrn hlb hrb
  rfl

/-- On its free axis the left operand's index is the output's row. -/
theorem transposedRhs_lhsIdx_zero {m k n : Nat} (j : (⟨2, ![m, n]⟩ : Shape).Idx) (q : (DotDims.transposedRhs m k n).contr.Idx) :
    ((DotDims.transposedRhs m k n).lhsIdx j q 0).val = (j 0).val := by
  unfold DotDims.lhsIdx
  rw [dif_neg (show ¬(0 : Fin 2) ∈ (DotDims.transposedRhs m k n).lhsBatch from List.not_mem_nil),
    dif_pos (show (0 : Fin 2) ∈ (DotDims.transposedRhs m k n).lhsNonContracting from List.mem_singleton.mpr rfl)]
  rfl

/-- On its free axis the right operand's index is the output's column. -/
theorem transposedRhs_rhsIdx_zero {m k n : Nat} (j : (⟨2, ![m, n]⟩ : Shape).Idx) (q : (DotDims.transposedRhs m k n).contr.Idx) :
    ((DotDims.transposedRhs m k n).rhsIdx j q 0).val = (j 1).val := by
  unfold DotDims.rhsIdx
  rw [dif_neg (show ¬(0 : Fin 2) ∈ (DotDims.transposedRhs m k n).rhsBatch from List.not_mem_nil),
    dif_pos (show (0 : Fin 2) ∈ (DotDims.transposedRhs m k n).rhsNonContracting from List.mem_singleton.mpr rfl)]
  rfl

/-- The left operand's index at output (a, b) and contraction position c is (a, c). -/
theorem transposedRhs_lhsIdx {m k n : Nat} (a : Fin m) (b : Fin n) (c : Fin k) :
    (DotDims.transposedRhs m k n).lhsIdx (ix2 a b) ((contrEquiv1 (DotDims.transposedRhs m k n) k rfl rfl).symm c) = ix2 a c := by
  have hc := contrEquiv1_symm_val (DotDims.transposedRhs m k n) k rfl rfl c
  funext x
  apply Fin.ext
  match x with
  | ⟨0, _⟩ => exact transposedRhs_lhsIdx_zero (ix2 a b) _
  | ⟨1, _⟩ => exact ((DotDims.transposedRhs m k n).lhsIdx_val_of_single rfl (ix2 a b) _).trans hc

/-- The right operand's index at output (a, b) and contraction position c is (b, c). -/
theorem transposedRhs_rhsIdx {m k n : Nat} (a : Fin m) (b : Fin n) (c : Fin k) :
    (DotDims.transposedRhs m k n).rhsIdx (ix2 a b) ((contrEquiv1 (DotDims.transposedRhs m k n) k rfl rfl).symm c) = ix2 b c := by
  have hc := contrEquiv1_symm_val (DotDims.transposedRhs m k n) k rfl rfl c
  funext x
  apply Fin.ext
  match x with
  | ⟨0, _⟩ => exact transposedRhs_rhsIdx_zero (ix2 a b) _
  | ⟨1, _⟩ => exact ((DotDims.transposedRhs m k n).rhsIdx_val_of_single rfl (ix2 a b) _).trans hc

/-- The product of an m×k batch with an n×k matrix transposed, accumulated into the zero splat, read at (a, b): the
    dot product of row a of the batch with row b of the matrix. -/
theorem matmul_transposedRhs_zero_ix2 {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  simp only [matmul]
  rw [Ideal.matmul_constant_zero_apply,
    ← Equiv.sum_comp (contrEquiv1 (DotDims.transposedRhs m k n) k rfl rfl).symm]
  refine Finset.sum_congr rfl fun c _ => ?_
  rw [transposedRhs_lhsIdx, transposedRhs_rhsIdx]

/-- The same for any dimension numbers of that kind (a printed program names its own record). -/
theorem matmul_lastAxes_zero_ix2 {m k n : Nat} {φ₁ φ₂ : FTy} (D : DotDims ⟨2, ![m, k]⟩ ⟨2, ![n, k]⟩ ⟨2, ![m, n]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (A : FVec Ideal ⟨2, ![m, k]⟩ φ₁) (B : FVec Ideal ⟨2, ![n, k]⟩ φ₂)
    (a : Fin m) (b : Fin n) :
    matmul D prec A B (constant ⟨2, ![m, n]⟩ .f32 0x00000000#32) (ix2 a b) = ∑ c : Fin k, A (ix2 a c) * B (ix2 b c) := by
  rw [dotDims_eq_transposedRhs D hlc hrc hln hrn hlb hrb]
  exact matmul_transposedRhs_zero_ix2 prec A B a b

/-- A length-d vector laid out as a 1×d row and repeated down m rows reads, at (p, j), the vector's j-th entry. -/
theorem rowBias_ix2 {α : Type} {m d : Nat} (v : (⟨1, ![d]⟩ : Shape).Idx → α)
    (h₁ : (⟨1, ![d]⟩ : Shape).ShapeCasts ⟨2, ![1, d]⟩) (h₂ : (⟨2, ![1, d]⟩ : Shape).Broadcasts ⟨2, ![m, d]⟩)
    (p : Fin m) (j : Fin d) :
    broadcastTo ⟨2, ![m, d]⟩ (shapeCast ⟨2, ![1, d]⟩ v h₁) h₂ (ix2 p j) = v (ix1 j) := by
  rw [broadcastTo_1b_ab_apply, shapeCast_a_1a_apply]

end Cert.DenseRows

end
-- ==== Proof.Spec.lean ====
/-
  The network that both programs compute, written for ONE input row over the extended reals.

  A row x of 512 features is projected to the drive u = Wx x + bx (128 features). The hidden state follows the ordinary
  differential equation dh/dt = -h + tanh (Wh h + d) with the constant input d = Wu u + b, starting from h = u, and is
  advanced by ONE classical fourth-order Runge-Kutta step of size 2: with f the right-hand side,
    k1 = f u,  k2 = f (u + 1·k1),  k3 = f (u + 1·k2),  k4 = f (u + 2·k3),  h = u + c·(((k1 + 2·k2) + 2·k3) + k4),
  where the half step 1, the full step 2 and the weight c (the single-precision number nearest one third) are the exact
  values of their bit patterns. The output row is Wout h + bout (256 features). Every weight matrix is stored with one row
  per output feature, so each product is a dot product of the state with a ROW of the matrix.

  Nothing here depends on the other rows of the batch: the whole result array is this row function applied to each row.
-/
import Idealize.ShloMosaic.PureOps.Ideal
import Idealize.ShloMosaic.Lib.ValueIdx

noncomputable section

open scoped BigOperators

namespace Cert.Liquid

open Idealize.ShloMosaic Idealize.ShloMosaic.ValueIdx

/-- An n×k array of extended reals. -/
abbrev Mat (n k : Nat) : Type := (⟨2, ![n, k]⟩ : Shape).Idx → EReal
/-- A length-n array of extended reals. -/
abbrev Col (n : Nat) : Type := (⟨1, ![n]⟩ : Shape).Idx → EReal

/-- Row r of an n×k array. -/
def row {n k : Nat} (A : Mat n k) (r : Fin n) : Fin k → EReal := fun c => A (ix2 r c)

/-- A dense layer applied to one row vector v: feature j is the dot product of v with row j of W, plus b j. -/
def dense {n k : Nat} (W : Mat n k) (b : Col n) (v : Fin k → EReal) : Fin n → EReal :=
  fun j => (∑ c : Fin k, v c * W (ix2 j c)) + b (ix1 j)

/-- The right-hand side of the differential equation at state h, with constant input d: -h + tanh (Wh h + d). -/
def field (Wh : Mat 128 128) (d h : Fin 128 → EReal) : Fin 128 → EReal :=
  fun j => -h j + Ideal.tanh ((∑ c : Fin 128, h c * Wh (ix2 j c)) + d j)

/-- The state u moved along the slope k by the step s. -/
def shift (s : EReal) (u k : Fin 128 → EReal) : Fin 128 → EReal := fun j => u j + s * k j

/-- The half step, 1. -/
abbrev halfStep : EReal := Ideal.ofBits .f32 0x3F800000#32
/-- The full step, 2 (also the weight of the two middle slopes). -/
abbrev fullStep : EReal := Ideal.ofBits .f32 0x40000000#32
/-- The weight of the blended slope: the single-precision number nearest 1/3. -/
abbrev sixthOfStep : EReal := Ideal.ofBits .f32 0x3EAAAAAB#32

/-- The four slopes of the Runge-Kutta step from the state u. -/
def slope1 (Wh : Mat 128 128) (d u : Fin 128 → EReal) : Fin 128 → EReal := field Wh d u
def slope2 (Wh : Mat 128 128) (d u : Fin 128 → EReal) : Fin 128 → EReal := field Wh d (shift halfStep u (slope1 Wh d u))
def slope3 (Wh : Mat 128 128) (d u : Fin 128 → EReal) : Fin 128 → EReal := field Wh d (shift halfStep u (slope2 Wh d u))
def slope4 (Wh : Mat 128 128) (d u : Fin 128 → EReal) : Fin 128 → EReal := field Wh d (shift fullStep u (slope3 Wh d u))

/-- The blended slope ((k1 + 2·k2) + 2·k3) + k4, summed in that order. -/
def blend (Wh : Mat 128 128) (d u : Fin 128 → EReal) : Fin 128 → EReal :=
  fun j => ((slope1 Wh d u j + fullStep * slope2 Wh d u j) + fullStep * slope3 Wh d u j) + slope4 Wh d u j

/-- The state after the step. -/
def evolve (Wh : Mat 128 128) (d u : Fin 128 → EReal) : Fin 128 → EReal := shift sixthOfStep u (blend Wh d u)

/-- The output row of the network for the input row xr. -/
def rowOut (Wx : Mat 128 512) (bx : Col 128) (Wh Wu : Mat 128 128) (bo : Col 128) (Wout : Mat 256 128) (bout : Col 256)
    (xr : Fin 512 → EReal) : Fin 256 → EReal :=
  dense Wout bout (evolve Wh (dense Wu bo (dense Wx bx xr)) (dense Wx bx xr))

/-- The whole result: the row function applied to every row of the batch. -/
def net (x : Mat 262144 512) (Wx : Mat 128 512) (bx : Col 128) (Wh Wu : Mat 128 128) (bo : Col 128) (Wout : Mat 256 128)
    (bout : Col 256) : Mat 262144 256 :=
  fun i => rowOut Wx bx Wh Wu bo Wout bout (row x ⟨(i 0).val, (i 0).isLt⟩) ⟨(i 1).val, (i 1).isLt⟩

theorem net_ix2 (x : Mat 262144 512) (Wx : Mat 128 512) (bx : Col 128) (Wh Wu : Mat 128 128) (bo : Col 128)
    (Wout : Mat 256 128) (bout : Col 256) (r : Fin 262144) (q : Fin 256) :
    net x Wx bx Wh Wu bo Wout bout (ix2 r q) = rowOut Wx bx Wh Wu bo Wout bout (row x r) q := rfl

end Cert.Liquid

end
-- ==== Proof.RowReads.lean ====
/-
  The vector operations a tile of rows goes through, read at one entry (row p, feature j) at the ideal values, in the
  spelling of a kernel that keeps its weights with one row per output feature and rounds a product's operands to bf16
  (the identity at the ideal values): a dense layer, the differential equation's right-hand side, a state moved along a
  slope, and the blend of four slopes. Each lemma takes what the operand arrays hold on row p as a hypothesis and returns
  the row function of the specification, so the stages of the network chain without reopening an earlier stage.
-/
import Idealize.ShloMosaic.PureOps.Ideal.Laws
import proofs.«135294_j59244778881188_1_alg».proof.Proof.LibDenseRows
import proofs.«135294_j59244778881188_1_alg».proof.Proof.Spec

noncomputable section

open scoped BigOperators

namespace Cert.Liquid

open Idealize.ShloMosaic Idealize.ShloMosaic.ValueIdx Cert.DenseRows

variable {m : Nat}

/-- A dense layer on a tile: if row p of the tile A is the vector a, then entry (p, j) of A·Wᵀ + b is dense W b a j. -/
theorem dense_read {k n : Nat} (D : DotDims ⟨2, ![m, k]⟩ ⟨2, ![n, k]⟩ ⟨2, ![m, n]⟩)
    (hlc : D.lhsContracting = [1]) (hrc : D.rhsContracting = [1]) (hln : D.lhsNonContracting = [0])
    (hrn : D.rhsNonContracting = [0]) (hlb : D.lhsBatch = []) (hrb : D.rhsBatch = [])
    (hbits : FTy.bits .bf16 < FTy.bits .f32)
    (A : FVec Ideal ⟨2, ![m, k]⟩ .f32) (W : FVec Ideal ⟨2, ![n, k]⟩ .f32) (b : FVec Ideal ⟨1, ![n]⟩ .f32)
    (h₁ : (⟨1, ![n]⟩ : Shape).ShapeCasts ⟨2, ![1, n]⟩) (h₂ : (⟨2, ![1, n]⟩ : Shape).Broadcasts ⟨2, ![m, n]⟩)
    (p : Fin m) (a : Fin k → EReal) (ha : ∀ c, A (ix2 p c) = a c) (j : Fin n) :
    addf (matmul D none (truncf .bf16 A hbits) (truncf .bf16 W hbits) (constant (F := Ideal) ⟨2, ![m, n]⟩ .f32 0x00000000#32))
        (broadcastTo ⟨2, ![m, n]⟩ (shapeCast ⟨2, ![1, n]⟩ b h₁) h₂) (ix2 p j)
      = dense W b a j := by
  rw [addf_apply, matmul_lastAxes_zero_ix2 D hlc hrc hln hrn hlb hrb, rowBias_ix2]
  unfold dense
  refine congrArg (· + b (ix1 j)) (Finset.sum_congr rfl fun c _ => ?_)
  rw [truncf_apply, truncf_apply, ha c]

/-- The right-hand side of the equation on a tile: if rows p of H and Dr are h and d, entry (p, j) of
    (0 - H) + tanh (H·Whᵀ + Dr) is field Wh d h j; subtracting from zero is negation on the extended reals. -/
theorem field_read (D : DotDims ⟨2, ![m, 128]⟩ ⟨2, ![128, 128]⟩ ⟨2, ![m, 128]⟩)
    (hlc : D.lhsContracting = [1]) (hrc : D.rhsContracting = [1]) (hln : D.lhsNonContracting = [0])
    (hrn : D.rhsNonContracting = [0]) (hlb : D.lhsBatch = []) (hrb : D.rhsBatch = [])
    (hbits : FTy.bits .bf16 < FTy.bits .f32)
    (H Dr : FVec Ideal ⟨2, ![m, 128]⟩ .f32) (Wh : FVec Ideal ⟨2, ![128, 128]⟩ .f32)
    (p : Fin m) (h d : Fin 128 → EReal) (hH : ∀ c, H (ix2 p c) = h c) (hD : ∀ c, Dr (ix2 p c) = d c) (j : Fin 128) :
    addf (subf (broadcast ⟨2, ![m, 128]⟩ (Scalar.ofBits (F := Ideal) .f32 0x00000000#32)) H)
        (tanh (addf (matmul D none (truncf .bf16 H hbits) (truncf .bf16 Wh hbits)
          (constant (F := Ideal) ⟨2, ![m, 128]⟩ .f32 0x00000000#32)) Dr)) (ix2 p j)
      = field Wh d h j := by
  show (Ideal.ofBits .f32 0x00000000#32 - H (ix2 p j))
      + Ideal.tanh (matmul D none (truncf .bf16 H hbits) (truncf .bf16 Wh hbits)
          (constant (F := Ideal) ⟨2, ![m, 128]⟩ .f32 0x00000000#32) (ix2 p j) + Dr (ix2 p j)) = _
  rw [matmul_lastAxes_zero_ix2 D hlc hrc hln hrn hlb hrb, Ideal.ofBits_zero_f32, zero_sub, hH j, hD j]
  unfold field
  refine congrArg (fun s => -h j + Ideal.tanh (s + d j)) (Finset.sum_congr rfl fun c _ => ?_)
  rw [truncf_apply, truncf_apply, hH c]

/-- A state moved along a slope on a tile: entry (p, j) of U + w·K. -/
theorem shift_read (w : BitVec 32) (U K : FVec Ideal ⟨2, ![m, 128]⟩ .f32) (p : Fin m) (u k : Fin 128 → EReal)
    (hU : ∀ c, U (ix2 p c) = u c) (hK : ∀ c, K (ix2 p c) = k c) (j : Fin 128) :
    addf U (mulf (broadcast ⟨2, ![m, 128]⟩ (Scalar.ofBits (F := Ideal) .f32 w)) K) (ix2 p j)
      = shift (Ideal.ofBits .f32 w) u k j := by
  show U (ix2 p j) + Ideal.ofBits .f32 w * K (ix2 p j) = _
  rw [hU j, hK j]
  rfl

/-- The blend of four slopes on a tile: entry (p, j) of ((K1 + w·K2) + w·K3) + K4. -/
theorem blend_read (w : BitVec 32) (K1 K2 K3 K4 : FVec Ideal ⟨2, ![m, 128]⟩ .f32) (p : Fin m)
    (k1 k2 k3 k4 : Fin 128 → EReal) (h1 : ∀ c, K1 (ix2 p c) = k1 c) (h2 : ∀ c, K2 (ix2 p c) = k2 c)
    (h3 : ∀ c, K3 (ix2 p c) = k3 c) (h4 : ∀ c, K4 (ix2 p c) = k4 c) (j : Fin 128) :
    addf (addf (addf K1 (mulf (broadcast ⟨2, ![m, 128]⟩ (Scalar.ofBits (F := Ideal) .f32 w)) K2))
        (mulf (broadcast ⟨2, ![m, 128]⟩ (Scalar.ofBits (F := Ideal) .f32 w)) K3)) K4 (ix2 p j)
      = ((k1 j + Ideal.ofBits .f32 w * k2 j) + Ideal.ofBits .f32 w * k3 j) + k4 j := by
  show ((K1 (ix2 p j) + Ideal.ofBits .f32 w * K2 (ix2 p j)) + Ideal.ofBits .f32 w * K3 (ix2 p j)) + K4 (ix2 p j) = _
  rw [h1 j, h2 j, h3 j, h4 j]

end Cert.Liquid

end
-- ==== Proof.KernelRows.lean ====
/-
  One tile of the idealized kernel, read a row at a time. The kernel's body computes its 2048×256 output tile from a
  2048×512 tile of the batch and the whole weight arrays. Every stage of the body acts on each row of the tile separately,
  so entry (p, q) of the output tile is the network's row function of row p of the input tile: the drive u, the constant
  input d, the slopes k1 and k2 and the state u + k2 (the values the first part of the body hands on), and from them the
  slopes k3 and k4, the blended step and the output layer.
-/
import proofs.«135294_j59244778881188_1_alg».proof.Proof.Gen.KernelIdeal.Skeleton
import proofs.«135294_j59244778881188_1_alg».proof.Proof.RowReads

noncomputable section

namespace Cert.KernelIdeal.Rows

open Idealize.ShloMosaic Idealize.ShloMosaic.ValueIdx Cert.KernelIdeal Cert.KernelIdeal.Gen Cert.Liquid

variable (x0 : Vec Ideal S2048x512 .f32) (x1 : Vec Ideal S128x512 .f32) (x2 : Vec Ideal S128 .f32)
  (x3 x4 : Vec Ideal S128x128 .f32) (x5 : Vec Ideal S128 .f32) (p : Fin 2048)

/-- The drive of row p of the tile: u = Wx x + bx. -/
abbrev drive : Fin 128 → EReal := dense x1 x2 (row x0 p)

/-- The constant input of row p: d = Wu u + b. -/
abbrev input : Fin 128 → EReal := dense x4 x5 (drive x0 x1 x2 p)

/-- The body's first value, on row p: the drive. -/
theorem pay2_row (j : Fin 128) : k0_pay2 x0 x1 x2 (ix2 p j) = drive x0 x1 x2 p j := by
  unfold k0_pay2
  exact dense_read dot_S2048x512_S128x512_S2048x128_1_1_0_0_n_n rfl rfl rfl rfl rfl rfl _ x0 x1 x2 _ _ p (row x0 p) (fun _ => rfl) j

/-- The second value: the constant input. -/
theorem pay3_row (j : Fin 128) : k0_pay3 x0 x1 x2 x4 x5 (ix2 p j) = input x0 x1 x2 x4 x5 p j := by
  unfold k0_pay3
  exact dense_read dot_S2048x128_S128x128_S2048x128_1_1_0_0_n_n rfl rfl rfl rfl rfl rfl _ (k0_pay2 x0 x1 x2) x4 x5 _ _ p _ (pay2_row x0 x1 x2 p) j

/-- The third: the first slope, at the state u. -/
theorem pay4_row (j : Fin 128) :
    k0_pay4 x0 x1 x2 x3 x4 x5 (ix2 p j) = slope1 x3 (input x0 x1 x2 x4 x5 p) (drive x0 x1 x2 p) j := by
  unfold k0_pay4
  exact field_read dot_S2048x128_S128x128_S2048x128_1_1_0_0_n_n rfl rfl rfl rfl rfl rfl _ (k0_pay2 x0 x1 x2) (k0_pay3 x0 x1 x2 x4 x5) x3 p _ _
    (pay2_row x0 x1 x2 p) (pay3_row x0 x1 x2 x4 x5 p) j

/-- The fourth: the second slope, at u + 1·k1. -/
theorem pay5_row (j : Fin 128) :
    k0_pay5 x0 x1 x2 x3 x4 x5 (ix2 p j) = slope2 x3 (input x0 x1 x2 x4 x5 p) (drive x0 x1 x2 p) j := by
  unfold k0_pay5
  exact field_read dot_S2048x128_S128x128_S2048x128_1_1_0_0_n_n rfl rfl rfl rfl rfl rfl _ _ (k0_pay3 x0 x1 x2 x4 x5) x3 p _ _
    (shift_read 0x3F800000#32 (k0_pay2 x0 x1 x2) (k0_pay4 x0 x1 x2 x3 x4 x5) p _ _
      (pay2_row x0 x1 x2 p) (pay4_row x0 x1 x2 x3 x4 x5 p))
    (pay3_row x0 x1 x2 x4 x5 p) j

/-- The fifth: the state u + 1·k2 at which the third slope is taken. -/
theorem pay6_row (j : Fin 128) :
    k0_pay6 x0 x1 x2 x3 x4 x5 (ix2 p j)
      = shift halfStep (drive x0 x1 x2 p) (slope2 x3 (input x0 x1 x2 x4 x5 p) (drive x0 x1 x2 p)) j := by
  unfold k0_pay6
  exact shift_read 0x3F800000#32 (k0_pay2 x0 x1 x2) (k0_pay5 x0 x1 x2 x3 x4 x5) p _ _
    (pay2_row x0 x1 x2 p) (pay5_row x0 x1 x2 x3 x4 x5 p) j

/-- The rest of the body, from those five values on row p: the third and fourth slopes, the blended step from u, and the
    output layer. -/
theorem pay1_row (v8 : FVec Ideal S2048x128 .f32) (v9 : Vec Ideal S128x128 .f32) (v17 v25 v36 v39 : FVec Ideal S2048x128 .f32)
    (v69 : Vec Ideal S256x128 .f32) (v73 : Vec Ideal S256 .f32) (u d : Fin 128 → EReal)
    (h8 : ∀ c, v8 (ix2 p c) = u c) (h17 : ∀ c, v17 (ix2 p c) = d c) (h25 : ∀ c, v25 (ix2 p c) = slope1 v9 d u c)
    (h36 : ∀ c, v36 (ix2 p c) = slope2 v9 d u c) (h39 : ∀ c, v39 (ix2 p c) = shift halfStep u (slope2 v9 d u) c)
    (q : Fin 256) :
    k0_pay1 v8 v9 v17 v25 v36 v39 (Scalar.ofBits .f32 0x00000000#32) v69 v73 (ix2 p q) = dense v69 v73 (evolve v9 d u) q := by
  unfold k0_pay1
  refine dense_read dot_S2048x128_S256x128_S2048x256_1_1_0_0_n_n rfl rfl rfl rfl rfl rfl _ _ v69 v73 _ _ p _ ?_ q
  intro c
  refine shift_read 0x3EAAAAAB#32 v8 _ p _ _ h8 ?_ c
  intro c
  refine blend_read 0x40000000#32 v25 v36 _ _ p _ _ _ _ h25 h36 ?_ ?_ c
  · intro c
    exact field_read dot_S2048x128_S128x128_S2048x128_1_1_0_0_n_n rfl rfl rfl rfl rfl rfl _ v39 v17 v9 p _ _ h39 h17 c
  · intro c
    refine field_read dot_S2048x128_S128x128_S2048x128_1_1_0_0_n_n rfl rfl rfl rfl rfl rfl _ _ v17 v9 p _ _ ?_ h17 c
    intro c
    refine shift_read 0x40000000#32 v8 _ p _ _ h8 ?_ c
    intro c
    exact field_read dot_S2048x128_S128x128_S2048x128_1_1_0_0_n_n rfl rfl rfl rfl rfl rfl _ v39 v17 v9 p _ _ h39 h17 c

/-- Entry (p, q) of the output tile is the network's output row for row p of the input tile, at feature q. -/
theorem tile_row (x6 : Vec Ideal S256x128 .f32) (x7 : Vec Ideal S256 .f32) (q : Fin 256) :
    k0_pay1 (k0_pay2 x0 x1 x2) x3 (k0_pay3 x0 x1 x2 x4 x5) (k0_pay4 x0 x1 x2 x3 x4 x5) (k0_pay5 x0 x1 x2 x3 x4 x5)
        (k0_pay6 x0 x1 x2 x3 x4 x5) (Scalar.ofBits .f32 0x00000000#32) x6 x7 (ix2 p q)
      = rowOut x1 x2 x3 x4 x5 x6 x7 (row x0 p) q :=
  pay1_row p _ x3 _ _ _ _ x6 x7 _ _ (pay2_row x0 x1 x2 p) (pay3_row x0 x1 x2 x4 x5 p) (pay4_row x0 x1 x2 x3 x4 x5 p)
    (pay5_row x0 x1 x2 x3 x4 x5 p) (pay6_row x0 x1 x2 x3 x4 x5 p) q

/-- The same at any index y of the output tile, its two coordinates named. -/
theorem tile_at (x6 : Vec Ideal S256x128 .f32) (x7 : Vec Ideal S256 .f32) (y : S2048x256.Idx) :
    k0_pay1 (k0_pay2 x0 x1 x2) x3 (k0_pay3 x0 x1 x2 x4 x5) (k0_pay4 x0 x1 x2 x3 x4 x5) (k0_pay5 x0 x1 x2 x3 x4 x5)
        (k0_pay6 x0 x1 x2 x3 x4 x5) (Scalar.ofBits .f32 0x00000000#32) x6 x7 y
      = rowOut x1 x2 x3 x4 x5 x6 x7 (row x0 ⟨(y 0).val, (y 0).isLt⟩) ⟨(y 1).val, (y 1).isLt⟩ := by
  obtain ⟨p, q, rfl⟩ : ∃ (p : Fin 2048) (q : Fin 256), y = ix2 p q := ⟨y 0, y 1, eq_ix2 y⟩
  exact tile_row x0 x1 x2 x3 x4 x5 p x6 x7 q

end Cert.KernelIdeal.Rows

end
-- ==== Proof.KernelArray.lean ====
/-
  From tiles to the whole array. The grid has 128 points; point t stages rows 2048·t … 2048·t + 2047 of the batch and
  ALL of every weight array, and writes back rows 2048·t … 2048·t + 2047 of the result. Since the body computes each row of
  its output tile from the same row of its input tile alone, what point t writes back is exactly those rows of the
  network applied to the whole batch; the 128 tiles cover every row, so after the run the result array is the network
  of the argument arrays.
-/
import proofs.«135294_j59244778881188_1_alg».proof.Proof.Gen.KernelIdeal.Value
import proofs.«135294_j59244778881188_1_alg».proof.Proof.KernelRows

noncomputable section

namespace Cert.KernelIdeal.Whole

open Cert.KernelIdeal Cert.KernelIdeal.Gen Idealize.ShloMosaic Idealize.ShloMosaic.TcCoe Idealize.SL.Sem
open Idealize.ShloMosaic.ValueIdx Cert.Liquid Cert.KernelIdeal.Rows
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The network of the argument arrays on core c. -/
abbrev result (c : Dev nD) : S262144x256.Idx → EReal :=
  net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The index maps, decided over the 128 grid points: the batch window and the result window sit at block row t, and
    every weight window at block zero (its block is the whole array). -/
theorem idx_facts : ∀ t : Fin cfg0.N,
    win0_0.index t (0 : Fin 2) = win0_8.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-! A weight window's block at any point is the whole weight array. -/

theorem whole1 (c : Dev nD) (t : Fin cfg0.N) : (iblk m c 1 t : S128x512.Idx → EReal) = m ((c : Thread nD τ).loc main_arg1) := by
  obtain ⟨-, -, e10, e11, e20, e30, e31, e40, e41, e50, e60, e61, e70, -, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 128 + 1 * (y 0).val = (y 0).val; omega
  | ⟨1, _⟩ => show win0_1.index t (1 : Fin 2) * 512 + 1 * (y 1).val = (y 1).val; omega

theorem whole2 (c : Dev nD) (t : Fin cfg0.N) : (iblk m c 2 t : S128.Idx → EReal) = m ((c : Thread nD τ).loc main_arg2) := by
  obtain ⟨-, -, e10, e11, e20, e30, e31, e40, e41, e50, e60, e61, e70, -, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 1) * 128 + 1 * (y 0).val = (y 0).val; omega

theorem whole3 (c : Dev nD) (t : Fin cfg0.N) : (iblk m c 3 t : S128x128.Idx → EReal) = m ((c : Thread nD τ).loc main_arg3) := by
  obtain ⟨-, -, e10, e11, e20, e30, e31, e40, e41, e50, e60, e61, e70, -, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem whole4 (c : Dev nD) (t : Fin cfg0.N) : (iblk m c 4 t : S128x128.Idx → EReal) = m ((c : Thread nD τ).loc main_arg4) := by
  obtain ⟨-, -, e10, e11, e20, e30, e31, e40, e41, e50, e60, e61, e70, -, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem whole5 (c : Dev nD) (t : Fin cfg0.N) : (iblk m c 5 t : S128.Idx → EReal) = m ((c : Thread nD τ).loc main_arg5) := by
  obtain ⟨-, -, e10, e11, e20, e30, e31, e40, e41, e50, e60, e61, e70, -, -⟩ := idx_facts t
  funext y
  show V m c main_arg5 (((cfg0.win 5).blk t).view.emb y) = V m c main_arg5 y
  refine congrArg (V m c main_arg5) (funext fun a => Fin.ext ?_)
  match a with
  | ⟨0, _⟩ => show win0_5.index t (0 : Fin 1) * 128 + 1 * (y 0).val = (y 0).val; omega

theorem whole6 (c : Dev nD) (t : Fin cfg0.N) : (iblk m c 6 t : S256x128.Idx → EReal) = m ((c : Thread nD τ).loc main_arg6) := by
  obtain ⟨-, -, e10, e11, e20, e30, e31, e40, e41, e50, e60, e61, e70, -, -⟩ := idx_facts t
  funext y
  show V m c main_arg6 (((cfg0.win 6).blk t).view.emb y) = V m c main_arg6 y
  refine congrArg (V m c main_arg6) (funext fun a => Fin.ext ?_)
  match a with
  | ⟨0, _⟩ => show win0_6.index t (0 : Fin 2) * 256 + 1 * (y 0).val = (y 0).val; omega
  | ⟨1, _⟩ => show win0_6.index t (1 : Fin 2) * 128 + 1 * (y 1).val = (y 1).val; omega

theorem whole7 (c : Dev nD) (t : Fin cfg0.N) : (iblk m c 7 t : S256.Idx → EReal) = m ((c : Thread nD τ).loc main_arg7) := by
  obtain ⟨-, -, e10, e11, e20, e30, e31, e40, e41, e50, e60, e61, e70, -, -⟩ := idx_facts t
  funext y
  show V m c main_arg7 (((cfg0.win 7).blk t).view.emb y) = V m c main_arg7 y
  refine congrArg (V m c main_arg7) (funext fun a => Fin.ext ?_)
  match a with
  | ⟨0, _⟩ => show win0_7.index t (0 : Fin 1) * 256 + 1 * (y 0).val = (y 0).val; omega

/-- Row p of the batch tile at point t is the batch's row at the place where the result tile's row p goes. -/
theorem batch_row (c : Dev nD) (t : Fin cfg0.N) (y : S2048x256.Idx) :
    row (iblk m c 0 t : S2048x512.Idx → EReal) ⟨(y 0).val, (y 0).isLt⟩
      = row (m ((c : Thread nD τ).loc main_arg0))
          ⟨((((cfg0.win 8).blk t).view.emb y : S262144x256.Idx) 0).val, ((((cfg0.win 8).blk t).view.emb y : S262144x256.Idx) 0).isLt⟩ := by
  obtain ⟨e00, e01, -⟩ := idx_facts t
  funext k
  show V m c main_arg0 (((cfg0.win 0).blk t).view.emb (ix2 ⟨(y 0).val, (y 0).isLt⟩ k)) = V m c main_arg0 (ix2 _ k)
  refine congrArg (V m c main_arg0) (funext fun a => Fin.ext ?_)
  match a with
  | ⟨0, _⟩ =>
    show win0_0.index t (0 : Fin 2) * 2048 + 1 * (y 0).val = win0_8.index t (0 : Fin 2) * 2048 + 1 * (y 0).val
    rw [e00]
  | ⟨1, _⟩ =>
    show win0_0.index t (1 : Fin 2) * 512 + 1 * k.val = k.val
    omega

/-- The result tile's column q goes to column q of the result. -/
theorem result_col (t : Fin cfg0.N) (y : S2048x256.Idx) :
    ((((cfg0.win 8).blk t).view.emb y : S262144x256.Idx) 1).val = (y 1).val := by
  obtain ⟨-, -, -, -, -, -, -, -, -, -, -, -, -, -, e81⟩ := idx_facts t
  show win0_8.index t (1 : Fin 2) * 256 + 1 * (y 1).val = (y 1).val
  omega

/-- What point t writes back is its block of the network of the argument arrays. -/
theorem flushed_eq (c : Dev nD) (t : Fin cfg0.N) :
    (dats m 0 c).flushed 8 t = ((cfg0.win 8).blk t).view.read (Elt Ideal) (result m c) := by
  rw [Value.flushed8]
  unfold out0_8
  rw [View.canon_unit_zero zero2]
  simp only [View.ld_unit_zero (S := S2048x512) zero2, View.ld_unit_zero (S := S128x512) zero2,
    View.ld_unit_zero (S := S128) zero1, View.ld_unit_zero (S := S128x128) zero2,
    View.ld_unit_zero (S := S256x128) zero2, View.ld_unit_zero (S := S256) zero1]
  funext y
  show k0_pay1 (k0_pay2 (iblk m c 0 t) (iblk m c 1 t) (iblk m c 2 t)) (iblk m c 3 t)
        (k0_pay3 (iblk m c 0 t) (iblk m c 1 t) (iblk m c 2 t) (iblk m c 4 t) (iblk m c 5 t))
        (k0_pay4 (iblk m c 0 t) (iblk m c 1 t) (iblk m c 2 t) (iblk m c 3 t) (iblk m c 4 t) (iblk m c 5 t))
        (k0_pay5 (iblk m c 0 t) (iblk m c 1 t) (iblk m c 2 t) (iblk m c 3 t) (iblk m c 4 t) (iblk m c 5 t))
        (k0_pay6 (iblk m c 0 t) (iblk m c 1 t) (iblk m c 2 t) (iblk m c 3 t) (iblk m c 4 t) (iblk m c 5 t))
        (Scalar.ofBits .f32 0x00000000#32) (iblk m c 6 t) (iblk m c 7 t) (y : S2048x256.Idx)
      = result m c (((cfg0.win 8).blk t).view.emb y)
  refine (tile_at (iblk m c 0 t) (iblk m c 1 t) (iblk m c 2 t) (iblk m c 3 t) (iblk m c 4 t) (iblk m c 5 t)
    (iblk m c 6 t) (iblk m c 7 t) y).trans ?_
  rw [whole1 m c t, whole2 m c t, whole3 m c t, whole4 m c t, whole5 m c t, whole6 m c t, whole7 m c t, batch_row m c t y]
  show _ = rowOut _ _ _ _ _ _ _ (row _ _) ⟨((((cfg0.win 8).blk t).view.emb y : S262144x256.Idx) 1).val, _⟩
  exact congrArg (rowOut _ _ _ _ _ _ _ (row _ _)) (Fin.ext (result_col t y).symm)

/-- Membership in point t's block of the result, by coordinates. -/
theorem mem_blk (t : Fin cfg0.N) (i : S262144x256.Idx) :
    i ∈ ((cfg0.win 8).blk t).view.set ↔ ∀ a : Fin 2, win0_8.index t a * S2048x256.size a ≤ (i a).val
      ∧ (i a).val < win0_8.index t a * S2048x256.size a + S2048x256.size a := by
  show i ∈ ((View.whole main_v0).slice (win0_8.rect t)).set ↔ _
  rw [View.set_slice_whole, Rect.mem_set_unit]
  exact Iff.rfl

/-- Every index of the result lies in the block of the point that owns its row: row r belongs to point r / 2048. -/
theorem covered (i : S262144x256.Idx) :
    ∃ t : Fin cfg0.N, (cfg0.win 8).flush t = true ∧ i ∈ ((cfg0.win 8).blk t).view.set := by
  have hi0 : (i 0).val < 262144 := (i 0).isLt
  have hi1 : (i 1).val < 256 := (i 1).isLt
  have hN : grid0.N = 128 := N_0
  have hlt : (i 0).val / 2048 < grid0.N := by omega
  obtain ⟨-, -, -, -, -, -, -, -, -, -, -, -, -, e80, e81⟩ := idx_facts ⟨(i 0).val / 2048, hlt⟩
  have e80' : win0_8.index ⟨(i 0).val / 2048, hlt⟩ (0 : Fin 2) = (i 0).val / 2048 := e80
  refine ⟨⟨(i 0).val / 2048, hlt⟩, flush0_8 _, ?_⟩
  rw [mem_blk]
  intro a
  match a with
  | ⟨0, _⟩ =>
    show win0_8.index ⟨(i 0).val / 2048, hlt⟩ (0 : Fin 2) * 2048 ≤ (i 0).val
      ∧ (i 0).val < win0_8.index ⟨(i 0).val / 2048, hlt⟩ (0 : Fin 2) * 2048 + 2048
    rw [e80']
    omega
  | ⟨1, _⟩ =>
    show win0_8.index ⟨(i 0).val / 2048, hlt⟩ (1 : Fin 2) * 256 ≤ (i 1).val
      ∧ (i 1).val < win0_8.index ⟨(i 0).val / 2048, hlt⟩ (1 : Fin 2) * 256 + 256
    omega

/-- After the run the result array is the network of the argument arrays. -/
theorem final (c : Dev nD) : (dats m 0 c).arrAt 8 cfg0.N = result m c :=
  (dats m 0 c).arrAt_eq_of_cover 8 (result m c) (fun t _ => flushed_eq m c t) covered

/-- The kernel's run with its result named: the network of the arguments, which end unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefRows.lean ====
/-
  The idealized reference, read a row at a time. The reference applies the same network to the whole batch with host
  operations: each weight matrix is transposed and multiplied from the right, each bias is repeated down the rows, the
  state is negated where the kernel subtracts it from zero. Stage by stage, entry (r, j) of every intermediate array is the
  corresponding stage of the row function at row r of the batch; the last stage is the network itself.
-/
import proofs.«135294_j59244778881188_1_alg».proof.Proof.Gen.ReferenceIdeal.Read
import proofs.«135294_j59244778881188_1_alg».proof.Proof.Spec

noncomputable section

open scoped BigOperators

namespace Cert.ReferenceIdeal.Rows

open Idealize.ShloMosaic Idealize.ShloMosaic.ValueIdx Cert.ReferenceIdeal Cert.ReferenceIdeal.Read Cert.Liquid

/-! ## The stages' arithmetic, on values -/

/-- Two sums whose terms agree factor by factor. -/
theorem dot_row {K : Nat} (f g a w : Fin K → EReal) (hf : ∀ k, f k = a k) (hg : ∀ k, g k = w k) :
    ∑ k, f k * g k = ∑ k, a k * w k :=
  Finset.sum_congr rfl fun k _ => by rw [hf k, hg k]

/-- A product with a transposed weight matrix plus a repeated bias is the dense layer. -/
theorem dense_eq {N K : Nat} (W : Mat N K) (b : Col N) (a : Fin K → EReal) (j : Fin N) (f g : Fin K → EReal) (β : EReal)
    (hf : ∀ k, f k = a k) (hg : ∀ k, g k = W (ix2 j k)) (hβ : β = b (ix1 j)) :
    FloatOps.addf (F := Ideal) (φ := .f32) (∑ k, f k * g k) β = dense W b a j := by
  subst hβ
  unfold dense
  exact congrArg (· + b (ix1 j)) (dot_row f g a _ hf hg)

/-- The negated state plus the hyperbolic tangent of the product plus the input is the equation's right-hand side. -/
theorem field_eq (Wh : Mat 128 128) (d h : Fin 128 → EReal) (j : Fin 128) (α δ : EReal) (f g : Fin 128 → EReal)
    (hα : α = h j) (hf : ∀ k, f k = h k) (hg : ∀ k, g k = Wh (ix2 j k)) (hδ : δ = d j) :
    FloatOps.addf (F := Ideal) (φ := .f32) (FloatOps.hostNegf α)
        (FloatOps.hostUnary .tanh (FloatOps.addf (∑ k, f k * g k) δ)) = field Wh d h j := by
  subst hα hδ
  unfold field
  exact congrArg (fun s => -h j + Ideal.tanh (s + d j)) (dot_row f g h _ hf hg)

/-- A state plus a step times a slope. -/
theorem shift_eq (w : BitVec 32) (u k : Fin 128 → EReal) (j : Fin 128) (υ κ : EReal) (hυ : υ = u j) (hκ : κ = k j) :
    FloatOps.addf (F := Ideal) (φ := .f32) υ (FloatOps.mulf (FloatOps.ofBits .f32 w) κ) = shift (Ideal.ofBits .f32 w) u k j := by
  subst hυ hκ
  rfl

/-! ## The stages, at entry (r, j) -/

variable (x0 : (⟨S262144x512, .f32⟩ : BufTy).Contents (Elt Ideal)) (x1 : (⟨S128x512, .f32⟩ : BufTy).Contents (Elt Ideal)) (x2 : (⟨S128, .f32⟩ : BufTy).Contents (Elt Ideal))
  (x3 x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S256, .f32⟩ : BufTy).Contents (Elt Ideal))
  (r : Fin 262144)

/-- The drive of row r of the batch: u = Wx x + bx. -/
abbrev drive : Fin 128 → EReal := dense x1 x2 (row x0 r)

/-- The constant input of row r: d = Wu u + b. -/
abbrev input : Fin 128 → EReal := dense x4 x5 (drive x0 x1 x2 r)

local macro "coords2" : tactic => `(tactic| exact funext fun a => match a with | ⟨0, _⟩ => rfl | ⟨1, _⟩ => rfl)
local macro "coords1" : tactic => `(tactic| exact funext fun a => match a with | ⟨0, _⟩ => rfl)

/-- The input projection. -/
theorem v4_row (j : Fin 128) : val_main_v4 (F := Ideal) x0 x1 x2 (ix2 r j) = drive x0 x1 x2 r j := by
  rw [val_main_v4_apply, val_main_v1_apply, val_main_v3_apply, val_main_v2_apply]
  exact dense_eq x1 x2 (row x0 r) j _ _ _ (fun k => congrArg x0 (by coords2))
    (fun k => (val_main_v0_apply x1 _).trans (congrArg x1 (by coords2))) (congrArg x2 (by coords1))

/-- The constant input. -/
theorem v9_row (j : Fin 128) : val_main_v9 (F := Ideal) x0 x1 x2 x4 x5 (ix2 r j) = input x0 x1 x2 x4 x5 r j := by
  rw [val_main_v9_apply, val_main_v6_apply, val_main_v8_apply, val_main_v7_apply]
  exact dense_eq x4 x5 (drive x0 x1 x2 r) j _ _ _
    (fun k => (congrArg (val_main_v4 (F := Ideal) x0 x1 x2) (by coords2)).trans (v4_row x0 x1 x2 r k))
    (fun k => (val_main_v5_apply x4 _).trans (congrArg x4 (by coords2))) (congrArg x5 (by coords1))

/-- The first slope, at the state u. -/
theorem v15_row (j : Fin 128) :
    val_main_v15 (F := Ideal) x0 x1 x2 x3 x4 x5 (ix2 r j) = slope1 x3 (input x0 x1 x2 x4 x5 r) (drive x0 x1 x2 r) j := by
  rw [val_main_v15_apply, val_main_v10_apply, val_main_v14_apply, val_main_v13_apply, val_main_v12_apply]
  exact field_eq x3 _ _ j _ _ _ _ (v4_row x0 x1 x2 r j)
    (fun k => (congrArg (val_main_v4 (F := Ideal) x0 x1 x2) (by coords2)).trans (v4_row x0 x1 x2 r k))
    (fun k => (val_main_v11_apply x3 _).trans (congrArg x3 (by coords2))) (v9_row x0 x1 x2 x4 x5 r j)

/-- The state u + 1·k1. -/
theorem v18_row (j : Fin 128) :
    val_main_v18 (F := Ideal) x0 x1 x2 x3 x4 x5 (ix2 r j)
      = shift halfStep (drive x0 x1 x2 r) (slope1 x3 (input x0 x1 x2 x4 x5 r) (drive x0 x1 x2 r)) j := by
  rw [val_main_v18_apply, val_main_v17_apply, val_main_v16_apply, val_main_cst_apply]
  exact shift_eq 0x3F800000#32 _ _ j _ _ (v4_row x0 x1 x2 r j) (v15_row x0 x1 x2 x3 x4 x5 r j)

/-- The second slope. -/
theorem v24_row (j : Fin 128) :
    val_main_v24 (F := Ideal) x0 x1 x2 x3 x4 x5 (ix2 r j) = slope2 x3 (input x0 x1 x2 x4 x5 r) (drive x0 x1 x2 r) j := by
  rw [val_main_v24_apply, val_main_v19_apply, val_main_v23_apply, val_main_v22_apply, val_main_v21_apply]
  exact field_eq x3 _ _ j _ _ _ _ (v18_row x0 x1 x2 x3 x4 x5 r j)
    (fun k => (congrArg (val_main_v18 (F := Ideal) x0 x1 x2 x3 x4 x5) (by coords2)).trans (v18_row x0 x1 x2 x3 x4 x5 r k))
    (fun k => (val_main_v20_apply x3 _).trans (congrArg x3 (by coords2))) (v9_row x0 x1 x2 x4 x5 r j)

/-- The state u + 1·k2. -/
theorem v27_row (j : Fin 128) :
    val_main_v27 (F := Ideal) x0 x1 x2 x3 x4 x5 (ix2 r j)
      = shift halfStep (drive x0 x1 x2 r) (slope2 x3 (input x0 x1 x2 x4 x5 r) (drive x0 x1 x2 r)) j := by
  rw [val_main_v27_apply, val_main_v26_apply, val_main_v25_apply, val_main_cst_0_apply]
  exact shift_eq 0x3F800000#32 _ _ j _ _ (v4_row x0 x1 x2 r j) (v24_row x0 x1 x2 x3 x4 x5 r j)

/-- The third slope. -/
theorem v33_row (j : Fin 128) :
    val_main_v33 (F := Ideal) x0 x1 x2 x3 x4 x5 (ix2 r j) = slope3 x3 (input x0 x1 x2 x4 x5 r) (drive x0 x1 x2 r) j := by
  rw [val_main_v33_apply, val_main_v28_apply, val_main_v32_apply, val_main_v31_apply, val_main_v30_apply]
  exact field_eq x3 _ _ j _ _ _ _ (v27_row x0 x1 x2 x3 x4 x5 r j)
    (fun k => (congrArg (val_main_v27 (F := Ideal) x0 x1 x2 x3 x4 x5) (by coords2)).trans (v27_row x0 x1 x2 x3 x4 x5 r k))
    (fun k => (val_main_v29_apply x3 _).trans (congrArg x3 (by coords2))) (v9_row x0 x1 x2 x4 x5 r j)

/-- The state u + 2·k3. -/
theorem v36_row (j : Fin 128) :
    val_main_v36 (F := Ideal) x0 x1 x2 x3 x4 x5 (ix2 r j)
      = shift fullStep (drive x0 x1 x2 r) (slope3 x3 (input x0 x1 x2 x4 x5 r) (drive x0 x1 x2 r)) j := by
  rw [val_main_v36_apply, val_main_v35_apply, val_main_v34_apply, val_main_cst_1_apply]
  exact shift_eq 0x40000000#32 _ _ j _ _ (v4_row x0 x1 x2 r j) (v33_row x0 x1 x2 x3 x4 x5 r j)

/-- The fourth slope. -/
theorem v42_row (j : Fin 128) :
    val_main_v42 (F := Ideal) x0 x1 x2 x3 x4 x5 (ix2 r j) = slope4 x3 (input x0 x1 x2 x4 x5 r) (drive x0 x1 x2 r) j := by
  rw [val_main_v42_apply, val_main_v37_apply, val_main_v41_apply, val_main_v40_apply, val_main_v39_apply]
  exact field_eq x3 _ _ j _ _ _ _ (v36_row x0 x1 x2 x3 x4 x5 r j)
    (fun k => (congrArg (val_main_v36 (F := Ideal) x0 x1 x2 x3 x4 x5) (by coords2)).trans (v36_row x0 x1 x2 x3 x4 x5 r k))
    (fun k => (val_main_v38_apply x3 _).trans (congrArg x3 (by coords2))) (v9_row x0 x1 x2 x4 x5 r j)

/-- The blended slope ((k1 + 2·k2) + 2·k3) + k4. -/
theorem v49_row (j : Fin 128) :
    val_main_v49 (F := Ideal) x0 x1 x2 x3 x4 x5 (ix2 r j) = blend x3 (input x0 x1 x2 x4 x5 r) (drive x0 x1 x2 r) j := by
  rw [val_main_v49_apply, val_main_v48_apply, val_main_v45_apply, val_main_v44_apply, val_main_v43_apply,
    val_main_cst_2_apply, val_main_v47_apply, val_main_v46_apply, val_main_cst_3_apply,
    v15_row x0 x1 x2 x3 x4 x5 r j, v24_row x0 x1 x2 x3 x4 x5 r j, v33_row x0 x1 x2 x3 x4 x5 r j,
    v42_row x0 x1 x2 x3 x4 x5 r j]
  rfl

/-- The state after the step. -/
theorem v52_row (j : Fin 128) :
    val_main_v52 (F := Ideal) x0 x1 x2 x3 x4 x5 (ix2 r j) = evolve x3 (input x0 x1 x2 x4 x5 r) (drive x0 x1 x2 r) j := by
  rw [val_main_v52_apply, val_main_v51_apply, val_main_v50_apply, val_main_cst_4_apply]
  exact shift_eq 0x3EAAAAAB#32 _ _ j _ _ (v4_row x0 x1 x2 r j) (v49_row x0 x1 x2 x3 x4 x5 r j)

/-- The output layer: entry (r, q) of the reference's result is the network's output row for row r of the batch. -/
theorem v57_row (q : Fin 256) :
    val_main_v57 (F := Ideal) x0 x1 x2 x3 x4 x5 x6 x7 (ix2 r q) = rowOut x1 x2 x3 x4 x5 x6 x7 (row x0 r) q := by
  rw [val_main_v57_apply, val_main_v54_apply, val_main_v56_apply, val_main_v55_apply]
  exact dense_eq x6 x7 (evolve x3 (input x0 x1 x2 x4 x5 r) (drive x0 x1 x2 r)) q _ _ _
    (fun k => (congrArg (val_main_v52 (F := Ideal) x0 x1 x2 x3 x4 x5) (by coords2)).trans (v52_row x0 x1 x2 x3 x4 x5 r k))
    (fun k => (val_main_v53_apply x6 _).trans (congrArg x6 (by coords2))) (congrArg x7 (by coords1))

/-- The reference's result is the network of its arguments. -/
theorem result_eq : val_main_v57 (F := Ideal) x0 x1 x2 x3 x4 x5 x6 x7 = net x0 x1 x2 x3 x4 x5 x6 x7 := by
  funext i
  obtain ⟨r, q, rfl⟩ : ∃ (r : Fin 262144) (q : Fin 256), i = ix2 r q := ⟨i 0, i 1, eq_ix2 i⟩
  exact v57_row x0 x1 x2 x3 x4 x5 x6 x7 r q

end Cert.ReferenceIdeal.Rows

end
-- ==== Proof.lean ====
/-
  A liquid-time-constant cell advanced by one Runge-Kutta step, as a tiled kernel and as plain array code.

  Both programs map each row x of a 262144×512 batch to  Wout h + bout,  where  u = Wx x + bx,  d = Wu u + b,  and h is
  the state after ONE classical fourth-order Runge-Kutta step of size 2 of  dh/dt = -h + tanh (Wh h + d)  from h = u
  (Proof/Spec.lean writes this row function out). The kernel walks the batch in 128 tiles of 2048 rows with all the
  weights resident, rounds each product's operands to bf16 and writes -h as 0 - h; the reference transposes each weight
  matrix and multiplies whole arrays. Over the extended reals a change of float format is the identity, a product is the
  exact sum of products whatever the tiling, and 0 - h is -h, so the two agree entry by entry with NO use of the
  finiteness of the inputs: the constants 1, 2 and the single-precision neighbour of 1/3 are the same bit patterns on
  both sides and are never evaluated, and the two sums of four slopes are grouped alike.

  Proof/KernelRows.lean reads one kernel tile a row at a time, Proof/KernelArray.lean assembles the 128 tiles into the
  whole result (the generated value leg names what each grid point writes back), Proof/RefRows.lean reads the
  reference's generated run stage by stage; here the three frame claims are the generated frames (the reference's is its
  generated run with the result dropped), the idealization rewrote nothing, and the algebraic claim sets the two runs
  side by side at the same function of the arguments.
-/
import proofs.«135294_j59244778881188_1_alg».proof.Defs
import proofs.«135294_j59244778881188_1_alg».proof.Proof.Gen.Kernel
import proofs.«135294_j59244778881188_1_alg».proof.Proof.Gen.Kernel.Skeleton
import proofs.«135294_j59244778881188_1_alg».proof.Proof.Gen.Kernel.Launch
import proofs.«135294_j59244778881188_1_alg».proof.Proof.Gen.Kernel.Points
import proofs.«135294_j59244778881188_1_alg».proof.Proof.Gen.Kernel.Frame
import proofs.«135294_j59244778881188_1_alg».proof.Proof.Gen.KernelIdeal
import proofs.«135294_j59244778881188_1_alg».proof.Proof.Gen.KernelIdeal.Skeleton
import proofs.«135294_j59244778881188_1_alg».proof.Proof.Gen.KernelIdeal.Launch
import proofs.«135294_j59244778881188_1_alg».proof.Proof.Gen.KernelIdeal.Points
import proofs.«135294_j59244778881188_1_alg».proof.Proof.Gen.KernelIdeal.Frame
import proofs.«135294_j59244778881188_1_alg».proof.Proof.Gen.KernelIdeal.Value
import proofs.«135294_j59244778881188_1_alg».proof.Proof.Gen.ReferenceIdeal
import proofs.«135294_j59244778881188_1_alg».proof.Proof.Gen.ReferenceIdeal.Run
import proofs.«135294_j59244778881188_1_alg».proof.Proof.Gen.ReferenceIdeal.Read
import proofs.«135294_j59244778881188_1_alg».proof.Proof.Gen.Pre_finite_inputs
import proofs.«135294_j59244778881188_1_alg».proof.Proof.KernelArray
import proofs.«135294_j59244778881188_1_alg».proof.Proof.RefRows
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the kernel's own text read over the extended reals: nothing was rewritten. -/
theorem preserves : Cert.preserves_Kernel_KernelIdeal := trivial

/-- From memories that agree on the arguments both programs end with the network of the arguments as their result. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.ReferenceIdeal.Rows.result_eq]
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
